-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S2048x4 : Shape := ⟨2, ![2048, 4]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S2048x4 : S_.BroadcastsInDim S2048x4 (![] : Fin 0 → Fin S2048x4.rank)
  reducesTo_S2048x4_S_d0_1 : S2048x4.ReducesTo [0, 1] S_

variable [Facts]

def fn {F : FTy → Type} [FloatOps F] (main_arg0 : FVec F S4x4096x2048 .f32) (main_arg1 : FVec F S2048x4 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S2048x4 .f32 := Host.absf main_arg1
  let main_cst_0 : FVec F S_ .f32 := constant S_ .f32 0x7F800000#32
  let main_v5 : FVec F S2048x4 .f32 := broadcastInDim S2048x4 ![] bcast_S_S2048x4 main_cst_0
  let main_v6 : IVec S2048x4 1 := cmpf .olt main_v4 main_v5
  let main_c_1 : IVec S_ 1 := constantI S_ 1 1#1
  let main_v7 : IVec S_ 1 := (fun x v => Host.reduce IntOp.andi x v reducesTo_S2048x4_S_d0_1 h_S_) main_v6 main_c_1
  let main_v8 : IVec S_ 1 := andi main_v3 main_v7
  main_v8
-- ==== Kernel.lean ====
abbrev S4x4096x2048 : Shape := ⟨3, ![4, 4096, 2048]⟩
abbrev S2048x4 : Shape := ⟨2, ![2048, 4]⟩
abbrev S4x2048 : Shape := ⟨2, ![4, 2048]⟩
abbrev S1x512x2048 : Shape := ⟨3, ![1, 512, 2048]⟩
abbrev S1x8x2048 : Shape := ⟨3, ![1, 8, 2048]⟩
abbrev S512x2048 : Shape := ⟨2, ![512, 2048]⟩
abbrev S8x2048 : Shape := ⟨2, ![8, 2048]⟩
abbrev S3x2048 : Shape := ⟨2, ![3, 2048]⟩
abbrev S515x2048 : Shape := ⟨2, ![515, 2048]⟩
abbrev S1x2048 : Shape := ⟨2, ![1, 2048]⟩

abbrev nBuf : Space → Nat
  | .hbm => 4
  | .vmem => 7
  | .smem => 0
  | _ => 0

abbrev bufTy : (tb : Table) → Fin (tcTables nBuf tb) → BufTy
  | .hbm, ⟨0, _⟩ => ⟨S4x4096x2048, .f32⟩
  | .hbm, ⟨1, _⟩ => ⟨S2048x4, .f32⟩
  | .hbm, ⟨2, _⟩ => ⟨S4x2048, .f32⟩
  | .hbm, ⟨3, _⟩ => ⟨S4x4096x2048, .f32⟩
  | .local _ .vmem, ⟨0, _⟩ => ⟨S1x512x2048, .f32⟩
  | .local _ .vmem, ⟨1, _⟩ => ⟨S1x512x2048, .f32⟩
  | .local _ .vmem, ⟨2, _⟩ => ⟨S1x8x2048, .f32⟩
  | .local _ .vmem, ⟨3, _⟩ => ⟨S1x8x2048, .f32⟩
  | .local _ .vmem, ⟨4, _⟩ => ⟨S4x2048, .f32⟩
  | .local _ .vmem, ⟨5, _⟩ => ⟨S1x512x2048, .f32⟩
  | .local _ .vmem, ⟨6, _⟩ => ⟨S1x512x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  transposes_S2048x4_S4x2048_1_0 : S2048x4.Transposes [1, 0] S4x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  inb_S1x8x2048_S1x8x2048_0_0_0 : ∀ a, (![0, 0, 0] : Fin 3 → Nat) a + S1x8x2048.size a ≤ S1x8x2048.size a
  h_S1x8x2048 : 0 < S1x8x2048.numel
  shapeCasts_S1x8x2048_S8x2048 : S1x8x2048.ShapeCasts S8x2048
  slices_S8x2048_o5_0_S3x2048 : S8x2048.Slices ![5, 0] S3x2048
  concatenates_S3x2048_S512x2048_S515x2048_d0 : Shape.Concatenates [S3x2048, S512x2048] S515x2048 0
  inb_S4x2048_S1x2048_3_0 : ∀ a, (![3, 0] : Fin 2 → Nat) a + S1x2048.size a ≤ S4x2048.size a
  h_S1x2048 : 0 < S1x2048.numel
  shapeCasts_S1x2048_S1x2048 : S1x2048.ShapeCasts S1x2048
  broadcasts_S1x2048_S512x2048 : S1x2048.Broadcasts S512x2048
  slices_S515x2048_o0_0_S512x2048 : S515x2048.Slices ![0, 0] S512x2048
  inb_S4x2048_S1x2048_0_0 : ∀ a, (![0, 0] : Fin 2 → Nat) a + S1x2048.size a ≤ S4x2048.size a
  slices_S515x2048_o1_0_S512x2048 : S515x2048.Slices ![1, 0] S512x2048
  inb_S4x2048_S1x2048_1_0 : ∀ a, (![1, 0] : Fin 2 → Nat) a + S1x2048.size a ≤ S4x2048.size a
  slices_S515x2048_o2_0_S512x2048 : S515x2048.Slices ![2, 0] S512x2048
  inb_S4x2048_S1x2048_2_0 : ∀ a, (![2, 0] : Fin 2 → Nat) a + S1x2048.size a ≤ S4x2048.size a
  shapeCasts_S512x2048_S1x512x2048 : S512x2048.ShapeCasts S1x512x2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S4x4096x2048.size a
  hwx0_0 : ∀ i : grid0.Coords, EltTy.bits .f32 = 32 ∨ (Rect.block (s := S4x4096x2048) S1x512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x2048.size a ≤ S4x4096x2048.size a
  hwx0_1 : ∀ i : grid0.Coords, EltTy.bits .f32 = 32 ∨ (Rect.block (s := S4x4096x2048) S1x8x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x2048.size a ≤ S4x2048.size a
  hwx0_2 : ∀ i : grid0.Coords, EltTy.bits .f32 = 32 ∨ (Rect.block (s := S4x2048) S4x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S4x4096x2048.size a
  hwx0_3 : ∀ i : grid0.Coords, EltTy.bits .f32 = 32 ∨ (Rect.block (s := S4x4096x2048) S1x512x2048.size (cc0_transform_3 i) (hinb0_3 i)).WholeWords (EltTy.packing .f32)

variable [Facts₀]

abbrev win0_0 : Pipeline.Window sig grid0 :=
  Pipeline.Window.ofSpec (Memref.whole main_arg0) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x8x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x4096x2048 : Shape := ⟨3, ![4, 4096, 2048]⟩
abbrev S2048x4 : Shape := ⟨2, ![2048, 4]⟩
abbrev S_ : Shape := ⟨0, ![]⟩
abbrev S4x4099x2048 : Shape := ⟨3, ![4, 4099, 2048]⟩
abbrev S2048x1 : Shape := ⟨2, ![2048, 1]⟩
abbrev S2048 : Shape := ⟨1, ![2048]⟩
abbrev S1x1x2048 : Shape := ⟨3, ![1, 1, 2048]⟩

abbrev nBuf : Space → Nat
  | .hbm => 32
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x4, .f32⟩
  | .hbm, ⟨2, _⟩ => ⟨S_, .i32⟩
  | .hbm, ⟨3, _⟩ => ⟨S_, .f32⟩
  | .hbm, ⟨4, _⟩ => ⟨S4x4099x2048, .f32⟩
  | .hbm, ⟨5, _⟩ => ⟨S4x4096x2048, .f32⟩
  | .hbm, ⟨6, _⟩ => ⟨S2048x1, .f32⟩
  | .hbm, ⟨7, _⟩ => ⟨S2048, .f32⟩
  | .hbm, ⟨8, _⟩ => ⟨S1x1x2048, .f32⟩
  | .hbm, ⟨9, _⟩ => ⟨S4x4096x2048, .f32⟩
  | .hbm, ⟨10, _⟩ => ⟨S4x4096x2048, .f32⟩
  | .hbm, ⟨11, _⟩ => ⟨S4x4096x2048, .f32⟩
  | .hbm, ⟨12, _⟩ => ⟨S2048x1, .f32⟩
  | .hbm, ⟨13, _⟩ => ⟨S2048, .f32⟩
  | .hbm, ⟨14, _⟩ => ⟨S1x1x2048, .f32⟩
  | .hbm, ⟨15, _⟩ => ⟨S4x4096x2048, .f32⟩
  | .hbm, ⟨16, _⟩ => ⟨S4x4096x2048, .f32⟩
  | .hbm, ⟨17, _⟩ => ⟨S4x4096x2048, .f32⟩
  | .hbm, ⟨18, _⟩ => ⟨S4x4096x2048, .f32⟩
  | .hbm, ⟨19, _⟩ => ⟨S2048x1, .f32⟩
  | .hbm, ⟨20, _⟩ => ⟨S2048, .f32⟩
  | .hbm, ⟨21, _⟩ => ⟨S1x1x2048, .f32⟩
  | .hbm, ⟨22, _⟩ => ⟨S4x4096x2048, .f32⟩
  | .hbm, ⟨23, _⟩ => ⟨S4x4096x2048, .f32⟩
  | .hbm, ⟨24, _⟩ => ⟨S4x4096x2048, .f32⟩
  | .hbm, ⟨25, _⟩ => ⟨S4x4096x2048, .f32⟩
  | .hbm, ⟨26, _⟩ => ⟨S2048x1, .f32⟩
  | .hbm, ⟨27, _⟩ => ⟨S2048, .f32⟩
  | .hbm, ⟨28, _⟩ => ⟨S1x1x2048, .f32⟩
  | .hbm, ⟨29, _⟩ => ⟨S4x4096x2048, .f32⟩
  | .hbm, ⟨30, _⟩ => ⟨S4x4096x2048, .f32⟩
  | .hbm, ⟨31, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩

abbrev nD : Nat := 1
abbrev τ : Topo := Topo.v7x

variable {F : FTy → Type} [FloatOps F]

class Facts₀ : Prop where
  pads_S4x4096x2048_S4x4099x2048_000_300_000 : S4x4096x2048.Pads (![0, 3, 0] : Fin 3 → Nat) ![0, 0, 0] ![0, 0, 0] S4x4099x2048
  h_S_ : 0 < S_.numel
  slices_S4x4099x2048_S4x4096x2048_0_0_0 : S4x4099x2048.Slices ![0, 0, 0] S4x4096x2048
  slices_S2048x4_S2048x1_0_0 : S2048x4.Slices ![0, 0] S2048x1
  shapeCasts_S2048x1_S2048 : S2048x1.ShapeCasts S2048
  bcast_S2048_S1x1x2048_2 : S2048.BroadcastsInDim S1x1x2048 (![2] : Fin 1 → Fin S1x1x2048.rank)
  bcast_S1x1x2048_S4x4096x2048_0_1_2 : S1x1x2048.BroadcastsInDim S4x4096x2048 (![0, 1, 2] : Fin 3 → Fin S4x4096x2048.rank)
  slices_S4x4099x2048_S4x4096x2048_0_1_0 : S4x4099x2048.Slices ![0, 1, 0] S4x4096x2048
  slices_S2048x4_S2048x1_0_1 : S2048x4.Slices ![0, 1] S2048x1
  slices_S4x4099x2048_S4x4096x2048_0_2_0 : S4x4099x2048.Slices ![0, 2, 0] S4x4096x2048
  slices_S2048x4_S2048x1_0_2 : S2048x4.Slices ![0, 2] S2048x1
  slices_S4x4099x2048_S4x4096x2048_0_3_0 : S4x4099x2048.Slices ![0, 3, 0] S4x4096x2048
  slices_S2048x4_S2048x1_0_3 : S2048x4.Slices ![0, 3] S2048x1

variable [Facts₀]

class Facts : Prop extends Facts₀ where

variable [Facts]
-- ==== Proof.KernelBody.lean ====
/-
  The causal depthwise convolution kernel, one grid point at a time.

  The grid is (batch b, tile i) with 4 · 8 points; the kernel is handed four windows: a 512-row tile of x
  (rows 512 i … 512 i + 511 of batch b), an 8-row halo of the SAME array x (rows 8 · max(64 i − 1, 0) …, i.e. the
  eight rows before the tile, or rows 0 … 7 when i = 0), the transposed 4 × 2048 filter, and the 512-row output tile.
  The body loads the three inputs whole (the filter row by row), computes ONE value of the output tile's
  shape from them, and stores it over the whole output buffer. This module states what the output buffer
  holds afterwards (the canonical contents of that one store), proves the body's Hoare triple by symbolic
  execution, and packages it as the pipeline's proof data: every input window is left at its block, the
  output at the stored value. The two x-windows stand on one array, so each holds it at HALF the full
  share.
-/
import proofs.«141822_j41575283425757_2_alg».proof.Proof.Gen.Kernel.Launch
import proofs.«141822_j41575283425757_2_alg».proof.Proof.Gen.Kernel.Skeleton
import proofs.«141822_j41575283425757_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region: the filter is transposed, then the kernel is launched -/

/-- The buffers as the region finds them: the launch contents after the host's transpose of the filter. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The transpose writes neither argument: the region finds x as launched, -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, Finset.mem_singleton]
    exact StableHlo.devRef_ne_of_ne (by decide)))
/-- and the filter as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, Finset.mem_singleton]
    exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whether the point fetched it
    or an earlier one did (the block index has not moved since): for any proof data on the region's arrays
    whose body leaves the input blocks in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

/-- The whole x tile, the whole halo, the four filter rows (in the order the body loads them: 3, 0, 1, 2). -/
abbrev rTile : Rect S1x512x2048 := Rect.unit (s := S1x512x2048) ![0, 0, 0] S1x512x2048.size Facts₀.inb_S1x512x2048_S1x512x2048_0_0_0
abbrev rHalo : Rect S1x8x2048 := Rect.unit (s := S1x8x2048) ![0, 0, 0] S1x8x2048.size Facts₀.inb_S1x8x2048_S1x8x2048_0_0_0
abbrev rW3 : Rect S4x2048 := Rect.unit (s := S4x2048) ![3, 0] S1x2048.size Facts₀.inb_S4x2048_S1x2048_3_0
abbrev rW0 : Rect S4x2048 := Rect.unit (s := S4x2048) ![0, 0] S1x2048.size Facts₀.inb_S4x2048_S1x2048_0_0
abbrev rW1 : Rect S4x2048 := Rect.unit (s := S4x2048) ![1, 0] S1x2048.size Facts₀.inb_S4x2048_S1x2048_1_0
abbrev rW2 : Rect S4x2048 := Rect.unit (s := S4x2048) ![2, 0] S1x2048.size Facts₀.inb_S4x2048_S1x2048_2_0

/-! ## What the body leaves in the output window's buffer -/

/-- The output tile after the body, from the three input blocks at grid coordinates `i`: its one store,
    over the whole buffer, of the body's arithmetic on what it loaded. -/
def outTile (i : grid0.Coords) (x0 : Vec F S1x512x2048 .f32) (x1 : Vec F S1x8x2048 .f32) (x2 : Vec F S4x2048 .f32) : Vec F S1x512x2048 .f32 :=
  View.canon [⟨rTile, k0_pay1 i (View.ld x0 rTile) (View.ld x1 rHalo) (View.ld x2 rW3) (View.ld x2 rW0) (View.ld x2 rW1) (View.ld x2 rW2)⟩]

/-- The one store covers the buffer. -/
theorem coverTile (p0 : Vec F S1x512x2048 .f32) (y : S1x512x2048.Idx) :
    ∃ pc ∈ ([⟨rTile, p0⟩] : List (View.Piece (Elt F) S1x512x2048 .f32)), y ∈ pc.1.set :=
  View.cover_of_tiled [⟨rTile, p0⟩] S1x512x2048.size (by rfl) y

/-! ## The body's triple -/

set_option maxHeartbeats 1000000 in
/-- On whole staging buffers — the inputs' at read contents, the output's at anything — the body runs to the
    continuation holding the inputs as they were and the output at `outTile` of the inputs. -/
theorem sound_kernel (c : Dev nD) (E : Set ℕ) (i : grid0.Coords)
    (arg2 : Memref sig .tc .vmem S1x512x2048 .f32) (harg2 : arg2.IsWhole) (arg3 : Memref sig .tc .vmem S1x8x2048 .f32) (harg3 : arg3.IsWhole)
    (arg4 : Memref sig .tc .vmem S4x2048 .f32) (harg4 : arg4.IsWhole) (arg5 : Memref sig .tc .vmem S1x512x2048 .f32) (harg5 : arg5.IsWhole)
    (x0 : Vec F S1x512x2048 .f32) (x1 : Vec F S1x8x2048 .f32) (x2 : Vec F S4x2048 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (outTile i x0 x1 x2)) -∗ K ⟨⟩))
      ⊢ wp frame (wpE (defs₀ (F := F)) Variants.none c none) E (cc0__conv_kernel i arg2 harg2 arg3 harg3 arg4 harg4 arg5 harg5) K := by
  simp only [cc0__conv_kernel_eq_skeleton]; unfold cc0__conv_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverTile _)

/-! ## The pipeline's proof data -/

/-- The region's arrays as it finds them; after the body at point `t` each input's buffer at its block and
    the output's at `outTile` of the input blocks; the invariant the core's scoped buffers that are no
    staging buffer (the body touches none); nothing owed; x held at half the full share by each of its two
    windows, the filter at the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outTile (grid0.coords t) (iblk m c 0 t) (iblk m c 1 t) (iblk m c 2 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = outTile (grid0.coords t) (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so the triple applies; the invariant and
    the core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

end Cert.Kernel.Conv

end
-- ==== Proof.KernelRun.lean ====
/-
  The run of the convolution kernel's program, and its frame.

  The launch hands the region every unscoped buffer whole. Three distinct buffers stand behind the four
  windows: x (read through BOTH the tile window and the halo window), the transposed filter, and the
  result. The full share of x is split into its two halves, one for each of its windows; the other two
  buffers go whole to their one window. With that split the pipeline's launch rule for windows that may
  share an array gives the run: every weakly fair execution ends, the result array holds the write-backs
  of all 32 points, and every array the kernel only reads — and every buffer it does not touch — is as
  the region found it.
-/
import proofs.«141822_j41575283425757_2_alg».proof.Proof.KernelBody
import Idealize.ShloMosaic.Lib.Pipeline.Frame

set_option maxRecDepth 16384

noncomputable section

namespace Cert.Kernel.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Dealing the arrays to the windows -/

/-- The three buffers behind the windows, each whole at the full share, make the windows' arrays at entry:
    x's full share is its left half (the tile window's) and its right half (the halo window's). -/
theorem arrays_of_bufs (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  have e : (Pipeline.arrBufs (Ix := Unit) (Name := ℕ) (U := UR sig nD τ) (Lvl := ℕ) spec0 c (V m c) : sProp 𝕄)
      = iprop((((c : Thread nD τ).loc main_arg0) ↦{fullShare} V m c main_arg0)
          ∗ (((c : Thread nD τ).loc main_v0) ↦{fullShare} V m c main_v0)
          ∗ (((c : Thread nD τ).loc main_v1) ↦{fullShare} V m c main_v1)) :=
    bigSep_eq_bigSepL_of_eq [main_arg0, main_v0, main_v1] (by decide) (by decide) _
  rw [e]
  unfold Dat.arrays
  rw [bigSep_W0]
  iintro ⟨Hx, Hw, Ho⟩
  ihave Hx2 := (pointsTo_share (PosShare.mem_left_op_right fullShare)).1 $$ Hx
  icases Hx2 with ⟨Hxl, Hxr⟩
  isplitl [Hxl]
  · rw [(arr_whole0 0).set_eq_univ]; iexact Hxl
  isplitl [Hxr]
  · rw [(arr_whole0 1).set_eq_univ]; iexact Hxr
  isplitl [Hw]
  · rw [(arr_whole0 2).set_eq_univ]; iexact Hw
  · rw [(arr_whole0 3).set_eq_univ]; iexact Ho

/-! ## The run -/

set_option backward.isDefEq.respectTransparency.types false in
/-- Every weakly fair execution of the program terminates, and every final state has each window's array at
    what the write-backs leave of the proof data (an input: its entry contents) and every other unscoped
    buffer as the region found it. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj))
    (hu₀ := .rfl)
    (V := V m) (hmain := hmain m Variants.none)
    (hsplit := arrays_of_bufs m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr; · iempintro
      iexact H)
    (hin := fun c => by
      dsimp only [dats]
      iintro ⟨-, H⟩
      iexact H)
    (hout := fun c => by
      dsimp only [dats]
      iintro H
      isplitr; · iempintro
      iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h => h)

/-! ## The frame -/

/-- The program runs to the end and leaves both of its arguments as they were: x is an input of the region
    (never written back), the filter is no window's array (the region passes it by), and the host's
    transpose before the region writes neither. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats m 0 c).arrAt_in 0 rfl _).trans ((A_eq m c 0).trans (V_main_arg0 m c))),
      ((h c).2 main_arg1 (Pipeline.mem_restRefs_of main_arg1 (by decide) (by decide))).trans (V_main_arg1 m c)⟩) (run_main m ρ)

end Cert.Kernel.Conv

end
-- ==== Proof.IdealBody.lean ====
/-
  The causal depthwise convolution kernel, one grid point at a time.

  The grid is (batch b, tile i) with 4 · 8 points; the kernel is handed four windows: a 512-row tile of x
  (rows 512 i … 512 i + 511 of batch b), an 8-row halo of the SAME array x (rows 8 · max(64 i − 1, 0) …, i.e. the
  eight rows before the tile, or rows 0 … 7 when i = 0), the transposed 4 × 2048 filter, and the 512-row output tile.
  The body loads the three inputs whole (the filter row by row), computes ONE value of the output tile's
  shape from them, and stores it over the whole output buffer. This module states what the output buffer
  holds afterwards (the canonical contents of that one store), proves the body's Hoare triple by symbolic
  execution, and packages it as the pipeline's proof data: every input window is left at its block, the
  output at the stored value. The two x-windows stand on one array, so each holds it at HALF the full
  share.
-/
import proofs.«141822_j41575283425757_2_alg».proof.Proof.Gen.KernelIdeal.Launch
import proofs.«141822_j41575283425757_2_alg».proof.Proof.Gen.KernelIdeal.Skeleton
import proofs.«141822_j41575283425757_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region: the filter is transposed, then the kernel is launched -/

/-- The buffers as the region finds them: the launch contents after the host's transpose of the filter. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The transpose writes neither argument: the region finds x as launched, -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, Finset.mem_singleton]
    exact StableHlo.devRef_ne_of_ne (by decide)))
/-- and the filter as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, Finset.mem_singleton]
    exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whether the point fetched it
    or an earlier one did (the block index has not moved since): for any proof data on the region's arrays
    whose body leaves the input blocks in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

/-- The whole x tile, the whole halo, the four filter rows (in the order the body loads them: 3, 0, 1, 2). -/
abbrev rTile : Rect S1x512x2048 := Rect.unit (s := S1x512x2048) ![0, 0, 0] S1x512x2048.size Facts₀.inb_S1x512x2048_S1x512x2048_0_0_0
abbrev rHalo : Rect S1x8x2048 := Rect.unit (s := S1x8x2048) ![0, 0, 0] S1x8x2048.size Facts₀.inb_S1x8x2048_S1x8x2048_0_0_0
abbrev rW3 : Rect S4x2048 := Rect.unit (s := S4x2048) ![3, 0] S1x2048.size Facts₀.inb_S4x2048_S1x2048_3_0
abbrev rW0 : Rect S4x2048 := Rect.unit (s := S4x2048) ![0, 0] S1x2048.size Facts₀.inb_S4x2048_S1x2048_0_0
abbrev rW1 : Rect S4x2048 := Rect.unit (s := S4x2048) ![1, 0] S1x2048.size Facts₀.inb_S4x2048_S1x2048_1_0
abbrev rW2 : Rect S4x2048 := Rect.unit (s := S4x2048) ![2, 0] S1x2048.size Facts₀.inb_S4x2048_S1x2048_2_0

/-! ## What the body leaves in the output window's buffer -/

/-- The output tile after the body, from the three input blocks at grid coordinates `i`: its one store,
    over the whole buffer, of the body's arithmetic on what it loaded. -/
def outTile (i : grid0.Coords) (x0 : Vec F S1x512x2048 .f32) (x1 : Vec F S1x8x2048 .f32) (x2 : Vec F S4x2048 .f32) : Vec F S1x512x2048 .f32 :=
  View.canon [⟨rTile, k0_pay1 i (View.ld x0 rTile) (View.ld x1 rHalo) (View.ld x2 rW3) (View.ld x2 rW0) (View.ld x2 rW1) (View.ld x2 rW2)⟩]

/-- The one store covers the buffer. -/
theorem coverTile (p0 : Vec F S1x512x2048 .f32) (y : S1x512x2048.Idx) :
    ∃ pc ∈ ([⟨rTile, p0⟩] : List (View.Piece (Elt F) S1x512x2048 .f32)), y ∈ pc.1.set :=
  View.cover_of_tiled [⟨rTile, p0⟩] S1x512x2048.size (by rfl) y

/-! ## The body's triple -/

set_option maxHeartbeats 1000000 in
/-- On whole staging buffers — the inputs' at read contents, the output's at anything — the body runs to the
    continuation holding the inputs as they were and the output at `outTile` of the inputs. -/
theorem sound_kernel (c : Dev nD) (E : Set ℕ) (i : grid0.Coords)
    (arg2 : Memref sig .tc .vmem S1x512x2048 .f32) (harg2 : arg2.IsWhole) (arg3 : Memref sig .tc .vmem S1x8x2048 .f32) (harg3 : arg3.IsWhole)
    (arg4 : Memref sig .tc .vmem S4x2048 .f32) (harg4 : arg4.IsWhole) (arg5 : Memref sig .tc .vmem S1x512x2048 .f32) (harg5 : arg5.IsWhole)
    (x0 : Vec F S1x512x2048 .f32) (x1 : Vec F S1x8x2048 .f32) (x2 : Vec F S4x2048 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (outTile i x0 x1 x2)) -∗ K ⟨⟩))
      ⊢ wp frame (wpE (defs₀ (F := F)) Variants.none c none) E (cc0__conv_kernel i arg2 harg2 arg3 harg3 arg4 harg4 arg5 harg5) K := by
  simp only [cc0__conv_kernel_eq_skeleton]; unfold cc0__conv_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverTile _)

/-! ## The pipeline's proof data -/

/-- The region's arrays as it finds them; after the body at point `t` each input's buffer at its block and
    the output's at `outTile` of the input blocks; the invariant the core's scoped buffers that are no
    staging buffer (the body touches none); nothing owed; x held at half the full share by each of its two
    windows, the filter at the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outTile (grid0.coords t) (iblk m c 0 t) (iblk m c 1 t) (iblk m c 2 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = outTile (grid0.coords t) (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so the triple applies; the invariant and
    the core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

end Cert.KernelIdeal.Conv

end
-- ==== Proof.IdealRun.lean ====
/-
  The run of the convolution kernel's program, and its frame.

  The launch hands the region every unscoped buffer whole. Three distinct buffers stand behind the four
  windows: x (read through BOTH the tile window and the halo window), the transposed filter, and the
  result. The full share of x is split into its two halves, one for each of its windows; the other two
  buffers go whole to their one window. With that split the pipeline's launch rule for windows that may
  share an array gives the run: every weakly fair execution ends, the result array holds the write-backs
  of all 32 points, and every array the kernel only reads — and every buffer it does not touch — is as
  the region found it.
-/
import proofs.«141822_j41575283425757_2_alg».proof.Proof.IdealBody
import Idealize.ShloMosaic.Lib.Pipeline.Frame

set_option maxRecDepth 16384

noncomputable section

namespace Cert.KernelIdeal.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Dealing the arrays to the windows -/

/-- The three buffers behind the windows, each whole at the full share, make the windows' arrays at entry:
    x's full share is its left half (the tile window's) and its right half (the halo window's). -/
theorem arrays_of_bufs (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  have e : (Pipeline.arrBufs (Ix := Unit) (Name := ℕ) (U := UR sig nD τ) (Lvl := ℕ) spec0 c (V m c) : sProp 𝕄)
      = iprop((((c : Thread nD τ).loc main_arg0) ↦{fullShare} V m c main_arg0)
          ∗ (((c : Thread nD τ).loc main_v0) ↦{fullShare} V m c main_v0)
          ∗ (((c : Thread nD τ).loc main_v1) ↦{fullShare} V m c main_v1)) :=
    bigSep_eq_bigSepL_of_eq [main_arg0, main_v0, main_v1] (by decide) (by decide) _
  rw [e]
  unfold Dat.arrays
  rw [bigSep_W0]
  iintro ⟨Hx, Hw, Ho⟩
  ihave Hx2 := (pointsTo_share (PosShare.mem_left_op_right fullShare)).1 $$ Hx
  icases Hx2 with ⟨Hxl, Hxr⟩
  isplitl [Hxl]
  · rw [(arr_whole0 0).set_eq_univ]; iexact Hxl
  isplitl [Hxr]
  · rw [(arr_whole0 1).set_eq_univ]; iexact Hxr
  isplitl [Hw]
  · rw [(arr_whole0 2).set_eq_univ]; iexact Hw
  · rw [(arr_whole0 3).set_eq_univ]; iexact Ho

/-! ## The run -/

set_option backward.isDefEq.respectTransparency.types false in
/-- Every weakly fair execution of the program terminates, and every final state has each window's array at
    what the write-backs leave of the proof data (an input: its entry contents) and every other unscoped
    buffer as the region found it. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj))
    (hu₀ := .rfl)
    (V := V m) (hmain := hmain m Variants.none)
    (hsplit := arrays_of_bufs m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr; · iempintro
      iexact H)
    (hin := fun c => by
      dsimp only [dats]
      iintro ⟨-, H⟩
      iexact H)
    (hout := fun c => by
      dsimp only [dats]
      iintro H
      isplitr; · iempintro
      iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h => h)

/-! ## The frame -/

/-- The program runs to the end and leaves both of its arguments as they were: x is an input of the region
    (never written back), the filter is no window's array (the region passes it by), and the host's
    transpose before the region writes neither. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats m 0 c).arrAt_in 0 rfl _).trans ((A_eq m c 0).trans (V_main_arg0 m c))),
      ((h c).2 main_arg1 (Pipeline.mem_restRefs_of main_arg1 (by decide) (by decide))).trans (V_main_arg1 m c)⟩) (run_main m ρ)

end Cert.KernelIdeal.Conv

end
-- ==== Proof.Spec.lean ====
/-
  The causal depthwise convolution with a filter of four taps, as one function of its two arguments.

  x has shape [4, 4096, 2048] (batch, position, channel) and w has shape [2048, 4] (channel, tap). Write
  xp for x with three rows of zeros put in front of every batch's sequence: xp[b, p, d] = x[b, p − 3, d]
  for p ≥ 3 and 0 for p < 3. The result is
      y[b, t, d] = xp[b, t, d] · w[d, 0] + xp[b, t + 1, d] · w[d, 1] + xp[b, t + 2, d] · w[d, 2] + xp[b, t + 3, d] · w[d, 3],
  summed from the left. Everything is over the extended reals; the only law used between two ways of
  computing y is that addition there is commutative and associative, which holds at the infinities too,
  so no finiteness of the inputs is needed.
-/
import Idealize.ShloMosaic.PureOps.Ideal
import Idealize.ShloMosaic.PureOps.Ideal.Laws
import Idealize.ShloMosaic.Lib.ValueIdx

noncomputable section

namespace Cert.ConvSpec

open Idealize.ShloMosaic Idealize.ShloMosaic.ValueIdx

/-- Indices of x (and of the result), and of the filter. -/
abbrev XIdx := (⟨3, ![4, 4096, 2048]⟩ : Shape).Idx
abbrev WIdx := (⟨2, ![2048, 4]⟩ : Shape).Idx

/-- Row `p` of batch `b` of the front-padded sequence, at channel `d`: three zero rows, then x. -/
def padded (x : XIdx → EReal) (b : Fin 4) (p : ℕ) (d : Fin 2048) : EReal :=
  if h : 3 ≤ p ∧ p - 3 < 4096 then x (ix3 b ⟨p - 3, h.2⟩ d) else 0

theorem padded_lt (x : XIdx → EReal) (b : Fin 4) (p : ℕ) (d : Fin 2048) (h : p < 3) : padded x b p d = 0 :=
  dif_neg (by omega)

theorem padded_ge (x : XIdx → EReal) (b : Fin 4) (p : ℕ) (d : Fin 2048) (k : Fin 4096) (hk : k.val + 3 = p) :
    padded x b p d = x (ix3 b k d) := by
  unfold padded
  rw [dif_pos ⟨by omega, by have := k.isLt; omega⟩]
  congr 2
  apply Fin.ext
  show p - 3 = k.val
  omega

/-- The convolution, the four taps summed from the left in the order 0, 1, 2, 3. -/
def conv (x : XIdx → EReal) (w : WIdx → EReal) : XIdx → EReal := fun i =>
  padded x (i 0) (i 1).val (i 2) * w (ix2 (i 2) (0 : Fin 4))
    + padded x (i 0) (1 + (i 1).val) (i 2) * w (ix2 (i 2) (1 : Fin 4))
    + padded x (i 0) (2 + (i 1).val) (i 2) * w (ix2 (i 2) (2 : Fin 4))
    + padded x (i 0) (3 + (i 1).val) (i 2) * w (ix2 (i 2) (3 : Fin 4))

/-- Four terms summed in the order 3, 0, 1, 2 give the same sum as in the order 0, 1, 2, 3. -/
theorem sum_rotate (a0 a1 a2 a3 : EReal) : a3 + a0 + a1 + a2 = a0 + a1 + a2 + a3 := by
  rw [add_comm (a0 + a1 + a2) a3, ← add_assoc, ← add_assoc]

end Cert.ConvSpec

end
-- ==== Proof.IdealTile.lean ====
/-
  One tile of the kernel's result, read at an index.

  At grid point (batch b, tile i) the body is handed the tile T (512 rows of x), the halo H (8 rows of x) and
  the four filter rows. It forms the 515-row extension E = [H[5], H[6], H[7], T[0], …, T[511]], with the three
  halo rows replaced by zeros when i = 0, and stores, at row r and channel d,
      T[r, d] · w₃[d] + E[r, d] · w₀[d] + E[r + 1, d] · w₁[d] + E[r + 2, d] · w₂[d].
  When T is x at rows 512 i …, and H is x at rows 8 (64 i − 1) … (for i ≠ 0), row s of E is row 512 i + s of the
  zero-padded sequence, and T[r] is its row 512 i + r + 3: the stored value is the convolution at row
  512 i + r, its four taps summed in the order 3, 0, 1, 2 instead of 0, 1, 2, 3.
-/
import proofs.«141822_j41575283425757_2_alg».proof.Proof.Gen.KernelIdeal.Skeleton
import proofs.«141822_j41575283425757_2_alg».proof.Proof.Spec
import Idealize.ShloMosaic.Lib.ValueLayout
import Idealize.ShloMosaic.Lib.Pipeline.Value

set_option maxRecDepth 16384

noncomputable section

namespace Cert.KernelIdeal.ConvValue

open Cert.KernelIdeal Cert.KernelIdeal.Gen Idealize.ShloMosaic
open Idealize.ShloMosaic.ValueIdx Cert.ConvSpec

/-! ## The body's arithmetic at an index -/

/-- A select on "the tile coordinate is 0" is the `if` on the coordinate. -/
theorem select_tile0 {α : Type} (h : Nat) (hh : h < 8) (A B : α) :
    Scalar.select (Scalar.cmpi .eq (BitVec.ofNat 32 h) 0#32) A B = if h = 0 then A else B := by
  interval_cases h <;> rfl

/-- Row `s` of the 515-row extension the body builds at grid coordinates `i`: its first three rows are the
    halo's last three rows (rows 5, 6, 7), or zeros when the tile is the first of its sequence; rows 3 … 514
    are the tile's rows 0 … 511. -/
def extRow (i : grid0.Coords) (x0 : Vec Ideal S1x512x2048 .f32) (x1 : Vec Ideal S1x8x2048 .f32) (s : Fin 515) (d : Fin 2048) : EReal :=
  if hs : s.val < 3 then (if (i 1).val = 0 then 0 else x1 (ix3 (0 : Fin 1) (⟨5 + s.val, by omega⟩ : Fin 8) d))
  else x0 (ix3 (0 : Fin 1) (⟨s.val - 3, by have := s.isLt; omega⟩ : Fin 512) d)

theorem ext_apply (i : grid0.Coords) (x0 : Vec Ideal S1x512x2048 .f32) (x1 : Vec Ideal S1x8x2048 .f32)
    (h1 : S1x512x2048.ShapeCasts S512x2048) (h3 : S1x8x2048.ShapeCasts S8x2048) (h4 : S8x2048.Slices ![5, 0] S3x2048)
    (h8 : Shape.Concatenates [S3x2048, S512x2048] S515x2048 0) (s : Fin 515) (d : Fin 2048) :
    concatenate S515x2048 0 [⟨S3x2048, Scalar.select (Scalar.cmpi .eq (BitVec.ofNat 32 (i 1).val) 0#32)
        (broadcast S3x2048 (Scalar.ofBits (F := Ideal) .f32 0x00000000#32))
        (extractStridedSlice S3x2048 ![5, 0] (shapeCast S8x2048 x1 h3) h4)⟩, ⟨S512x2048, shapeCast S512x2048 x0 h1⟩] h8 (ix2 s d)
      = extRow i x0 x1 s d := by
  have hi : (i 1).val < 8 := (i 1).isLt
  unfold extRow
  rw [select_tile0 (i 1).val hi]
  by_cases hs : s.val < 3
  · rw [dif_pos hs]
    refine (concatenate_pair_apply_left (t := S515x2048) (s₁ := S3x2048) (s₂ := S512x2048) (0 : Fin 2) _ _ h8 (ix2 s d) rfl (ix2 (⟨s.val, hs⟩ : Fin 3) d)
      (fun b => by match b with | ⟨0, _⟩ => rfl | ⟨1, _⟩ => rfl)).trans ?_
    by_cases h0 : (i 1).val = 0
    · rw [if_pos h0, if_pos h0]
      exact Ideal.ofBits_zero_f32
    · rw [if_neg h0, if_neg h0]
      refine (slice2_axis0_apply 5 _ h4 (⟨s.val, hs⟩ : Fin 3) d (⟨5 + s.val, by omega⟩ : Fin 8) rfl).trans ?_
      exact shapeCast_1ab_ab_apply x1 h3 _ d
  · rw [dif_neg hs]
    have hs' : s.val < 515 := s.isLt
    refine (concatenate_pair_apply_right (t := S515x2048) (s₁ := S3x2048) (s₂ := S512x2048) (0 : Fin 2) _ _ h8 (ix2 s d) rfl rfl (ix2 (⟨s.val - 3, by omega⟩ : Fin 512) d)
      (fun b hb => by match b with | ⟨0, _⟩ => exact absurd rfl hb | ⟨1, _⟩ => rfl)
      (by show s.val - 3 + 3 = s.val; omega)).trans ?_
    exact shapeCast_1ab_ab_apply x0 h1 _ d

/-- One filter row, loaded as a [1, 2048] block and broadcast over the tile's 512 rows, read at (r, d). -/
theorem row_apply (w : Vec Ideal S1x2048 .f32) (hc : S1x2048.ShapeCasts S1x2048) (hb : S1x2048.Broadcasts S512x2048)
    (r : Fin 512) (d : Fin 2048) :
    broadcastTo S512x2048 (shapeCast S1x2048 w hc) hb (ix2 r d) = w (ix2 (0 : Fin 1) d) := by
  rw [shapeCast_self]
  exact broadcastTo_1b_ab_apply w hb r d

/-- The body's stored value at row `r`, channel `d` of the tile: tap 3 on the tile's own row, then taps 0, 1, 2
    on rows r, r + 1, r + 2 of the extension. -/
theorem pay_apply (i : grid0.Coords) (x0 : Vec Ideal S1x512x2048 .f32) (x1 : Vec Ideal S1x8x2048 .f32)
    (w3 w0 w1 w2 : Vec Ideal S1x2048 .f32) (r : Fin 512) (d : Fin 2048) :
    k0_pay1 (F := Ideal) i x0 x1 w3 w0 w1 w2 (ix3 (0 : Fin 1) r d)
      = x0 (ix3 (0 : Fin 1) r d) * w3 (ix2 (0 : Fin 1) d)
        + extRow i x0 x1 (⟨r.val, by omega⟩ : Fin 515) d * w0 (ix2 (0 : Fin 1) d)
        + extRow i x0 x1 (⟨1 + r.val, by omega⟩ : Fin 515) d * w1 (ix2 (0 : Fin 1) d)
        + extRow i x0 x1 (⟨2 + r.val, by omega⟩ : Fin 515) d * w2 (ix2 (0 : Fin 1) d) := by
  unfold k0_pay1
  dsimp only
  refine (shapeCast_ab_1ab_apply _ _ (0 : Fin 1) r d).trans ?_
  simp only [addf_apply, mulf_apply]
  refine congrArg₂ (· + ·) (congrArg₂ (· + ·) (congrArg₂ (· + ·) (congrArg₂ (· * ·) ?_ ?_) (congrArg₂ (· * ·) ?_ ?_))
    (congrArg₂ (· * ·) ?_ ?_)) (congrArg₂ (· * ·) ?_ ?_)
  · exact shapeCast_1ab_ab_apply x0 _ r d
  · exact row_apply w3 _ _ r d
  · exact (slice2_axis0_apply 0 _ _ r d (⟨r.val, by omega⟩ : Fin 515) (Nat.zero_add _).symm).trans (ext_apply i x0 x1 _ _ _ _ _ d)
  · exact row_apply w0 _ _ r d
  · exact (slice2_axis0_apply 1 _ _ r d (⟨1 + r.val, by omega⟩ : Fin 515) rfl).trans (ext_apply i x0 x1 _ _ _ _ _ d)
  · exact row_apply w1 _ _ r d
  · exact (slice2_axis0_apply 2 _ _ r d (⟨2 + r.val, by omega⟩ : Fin 515) rfl).trans (ext_apply i x0 x1 _ _ _ _ _ d)
  · exact row_apply w2 _ _ r d

/-! ## The tile's stored value is the convolution at the tile's rows -/

section Join

variable (X : XIdx → EReal) (W : WIdx → EReal) (b : Fin 4) (ti : Fin 8)
  (i : grid0.Coords) (hi : (i 1).val = ti.val)
  (x0 : Vec Ideal S1x512x2048 .f32) (x1 : Vec Ideal S1x8x2048 .f32)
  (hx0 : ∀ (r : Fin 512) (d : Fin 2048),
    x0 (ix3 (0 : Fin 1) r d) = X (ix3 b (⟨512 * ti.val + r.val, by have := ti.isLt; have := r.isLt; omega⟩ : Fin 4096) d))
  (hx1 : ti.val ≠ 0 → ∀ (k : Fin 8) (d : Fin 2048),
    x1 (ix3 (0 : Fin 1) k d) = X (ix3 b (⟨8 * (64 * ti.val - 1) + k.val, by have := ti.isLt; have := k.isLt; omega⟩ : Fin 4096) d))

include hi hx0 hx1 in
/-- Row `s` of the extension at tile `ti` is row 512 · ti + s of the padded sequence: the tile's first row is
    padded row 512 · ti + 3, the halo's row 5 is x's row 512 · ti − 3, and before the first tile there are zeros. -/
theorem ext_eq_padded (s : Fin 515) (d : Fin 2048) :
    extRow i x0 x1 s d = padded X b (512 * ti.val + s.val) d := by
  have hti : ti.val < 8 := ti.isLt
  have hs : s.val < 515 := s.isLt
  unfold extRow
  by_cases h3 : s.val < 3
  · rw [dif_pos h3]
    by_cases h0 : ti.val = 0
    · rw [if_pos (hi.trans h0), padded_lt X b _ d (by omega)]
    · rw [if_neg (fun h => h0 (hi.symm.trans h))]
      exact (hx1 h0 _ d).trans (padded_ge X b _ d _
        (by show 8 * (64 * ti.val - 1) + (5 + s.val) + 3 = 512 * ti.val + s.val; omega)).symm
  · rw [dif_neg h3]
    exact (hx0 _ d).trans (padded_ge X b _ d _
      (by show 512 * ti.val + (s.val - 3) + 3 = 512 * ti.val + s.val; omega)).symm

include hi hx0 hx1 in
/-- The body's stored value at row `r` of tile `ti` is the convolution at row 512 · ti + r: its four taps are the
    convolution's, summed in the order 3, 0, 1, 2. -/
theorem tile_eq_conv (w3 w0 w1 w2 : Vec Ideal S1x2048 .f32)
    (hw0 : ∀ d : Fin 2048, w0 (ix2 (0 : Fin 1) d) = W (ix2 d (0 : Fin 4)))
    (hw1 : ∀ d : Fin 2048, w1 (ix2 (0 : Fin 1) d) = W (ix2 d (1 : Fin 4)))
    (hw2 : ∀ d : Fin 2048, w2 (ix2 (0 : Fin 1) d) = W (ix2 d (2 : Fin 4)))
    (hw3 : ∀ d : Fin 2048, w3 (ix2 (0 : Fin 1) d) = W (ix2 d (3 : Fin 4)))
    (r : Fin 512) (d : Fin 2048) :
    k0_pay1 (F := Ideal) i x0 x1 w3 w0 w1 w2 (ix3 (0 : Fin 1) r d)
      = conv X W (ix3 b (⟨512 * ti.val + r.val, by have := ti.isLt; have := r.isLt; omega⟩ : Fin 4096) d) := by
  have hti : ti.val < 8 := ti.isLt
  have hr : r.val < 512 := r.isLt
  rw [pay_apply, ext_eq_padded X b ti i hi x0 x1 hx0 hx1, ext_eq_padded X b ti i hi x0 x1 hx0 hx1,
    ext_eq_padded X b ti i hi x0 x1 hx0 hx1, hw0, hw1, hw2, hw3]
  rw [(hx0 r d).trans (padded_ge X b (3 + (512 * ti.val + r.val)) d _
    (by show 512 * ti.val + r.val + 3 = 3 + (512 * ti.val + r.val); omega)).symm]
  show _ = padded X b (512 * ti.val + r.val) d * W (ix2 d (0 : Fin 4))
    + padded X b (1 + (512 * ti.val + r.val)) d * W (ix2 d (1 : Fin 4))
    + padded X b (2 + (512 * ti.val + r.val)) d * W (ix2 d (2 : Fin 4))
    + padded X b (3 + (512 * ti.val + r.val)) d * W (ix2 d (3 : Fin 4))
  rw [show 512 * ti.val + (1 + r.val) = 1 + (512 * ti.val + r.val) by omega,
    show 512 * ti.val + (2 + r.val) = 2 + (512 * ti.val + r.val) by omega]
  exact sum_rotate _ _ _ _

end Join

end Cert.KernelIdeal.ConvValue

end
-- ==== Proof.IdealValue.lean ====
/-
  The kernel's result array is the convolution of its arguments.

  Point (b, i) of the 4 · 8 grid writes back the tile of rows 512 i … 512 i + 511 of batch b. The tile window's
  block there is x at those rows, the halo window's block is x at rows 8 (64 i − 1) … of the same batch
  (rows 0 … 7 for i = 0, where the body does not use them), and the filter window holds the transposed
  filter, whose row k is column k of w. By the tile's arithmetic the tile written back is that tile of the
  convolution; the 32 tiles cover the result array, so after the run the array is the convolution.
-/
import proofs.«141822_j41575283425757_2_alg».proof.Proof.IdealRun
import proofs.«141822_j41575283425757_2_alg».proof.Proof.IdealTile
import Idealize.ShloMosaic.Lib.StableHlo.Run

set_option maxRecDepth 16384

noncomputable section

namespace Cert.KernelIdeal.ConvValue

open Cert.KernelIdeal Cert.KernelIdeal.Gen Cert.KernelIdeal.Conv Idealize.ShloMosaic Idealize.ShloMosaic.TcCoe Idealize.SL.Sem
open Idealize.ShloMosaic.ValueIdx Cert.ConvSpec
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl

/-- The filter as the region finds it is the launched filter transposed. -/
theorem V_filter (c : Dev nD) : (V m c main_v0 : S4x2048.Idx → EReal)
    = transpose S4x2048 [1, 0] (m ((c : Thread nD τ).loc main_arg1)) Facts₀.transposes_S2048x4_S4x2048_1_0 := by
  dsimp only [V, hostOps0]; after_results

/-- The printed index maps over the 32 grid points (batch b, tile i): the tile and the result move together
    at block (b, i, 0), the halo sits at block (b, 64 i − 1, 0) — at (b, 0, 0) for i = 0 —, the filter stays. -/
theorem idx_facts : ∀ t : Fin cfg0.N,
    win0_0.index t (0 : Fin 3) = (grid0.coords t 0).val ∧ win0_0.index t (1 : Fin 3) = (grid0.coords t 1).val ∧ win0_0.index t (2 : Fin 3) = 0
    ∧ win0_3.index t (0 : Fin 3) = (grid0.coords t 0).val ∧ win0_3.index t (1 : Fin 3) = (grid0.coords t 1).val ∧ win0_3.index t (2 : Fin 3) = 0
    ∧ win0_1.index t (0 : Fin 3) = (grid0.coords t 0).val ∧ win0_1.index t (1 : Fin 3) = 64 * (grid0.coords t 1).val - 1 ∧ win0_1.index t (2 : Fin 3) = 0
    ∧ win0_2.index t (0 : Fin 2) = 0 ∧ win0_2.index t (1 : Fin 2) = 0 :=
  (by decide +kernel : ∀ t : Fin grid0.N, _)

/-- Every (batch, tile) pair is some point's. -/
theorem idx_onto : ∀ (q0 : Fin 4) (q1 : Fin 8), ∃ t : Fin cfg0.N, win0_3.index t = ![q0.val, q1.val, 0] :=
  (by decide +kernel : ∀ (q0 : Fin 4) (q1 : Fin 8), ∃ t : Fin grid0.N, win0_3.index t = ![q0.val, q1.val, 0])

/-- What point `t` writes back is its tile of the convolution of the launched arguments. -/
theorem flushed_eq (c : Dev nD) (t : Fin cfg0.N) :
    (dats m 0 c).flushed 3 t = ((cfg0.win 3).blk t).view.read (Elt Ideal)
      (conv (m ((c : Thread nD τ).loc main_arg0)) (m ((c : Thread nD τ).loc main_arg1))) := by
  show (cfg0.win 3).cut (grid0.coords t) ((dats m 0 c).after 3 t) = _
  rw [after0_3]
  unfold outTile
  rw [View.canon_unit_zero hz3]
  simp only [View.ld_unit_zero (S := S1x512x2048) hz3, View.ld_unit_zero (S := S1x8x2048) hz3]
  obtain ⟨e00, e01, e02, e30, e31, e32, e10, e11, e12, e20, e21⟩ := idx_facts t
  funext j
  obtain ⟨u, r, d, rfl⟩ : ∃ (u : Fin 1) (r : Fin 512) (d : Fin 2048), j = ix3 u r d := ⟨j 0, j 1, j 2, eq_ix3 j⟩
  obtain rfl : u = 0 := Subsingleton.elim _ _
  show k0_pay1 (F := Ideal) (grid0.coords t) (iblk m c 0 t) (iblk m c 1 t) (View.ld (iblk m c 2 t) rW3) (View.ld (iblk m c 2 t) rW0)
      (View.ld (iblk m c 2 t) rW1) (View.ld (iblk m c 2 t) rW2) (ix3 (0 : Fin 1) r d)
    = conv (m ((c : Thread nD τ).loc main_arg0)) (m ((c : Thread nD τ).loc main_arg1)) (((cfg0.win 3).blk t).view.emb (ix3 (0 : Fin 1) r d))
  have hb4 : (grid0.coords t 0).val < 4 := (grid0.coords t 0).isLt
  have hb8 : (grid0.coords t 1).val < 8 := (grid0.coords t 1).isLt
  generalize hbv : (grid0.coords t 0).val = bv at e00 e30 e10 hb4
  generalize htv : (grid0.coords t 1).val = tv at e01 e31 e11 hb8
  have hw : ∀ (k : Fin 4) (d : Fin 2048), V m c main_v0 (ix2 k d) = m ((c : Thread nD τ).loc main_arg1) (ix2 d k) := fun k d =>
    (congrFun (V_filter m c) _).trans (transpose_ix2_apply _ _ k d)
  refine (tile_eq_conv (m ((c : Thread nD τ).loc main_arg0)) (m ((c : Thread nD τ).loc main_arg1)) (⟨bv, hb4⟩ : Fin 4) (⟨tv, hb8⟩ : Fin 8)
    (grid0.coords t) htv (iblk m c 0 t) (iblk m c 1 t) ?hx0 ?hx1 _ _ _ _ ?hw0 ?hw1 ?hw2 ?hw3 r d).trans ?_
  case hx0 =>
    intro r d
    show V m c main_arg0 (((cfg0.win 0).blk t).view.emb (ix3 (0 : Fin 1) r d)) = _
    rw [V_main_arg0]
    refine congrArg _ (funext fun a => Fin.ext ?_)
    match a with
    | ⟨0, _⟩ => show win0_0.index t (0 : Fin 3) * 1 + 1 * 0 = bv; omega
    | ⟨1, _⟩ => show win0_0.index t (1 : Fin 3) * 512 + 1 * r.val = 512 * tv + r.val; omega
    | ⟨2, _⟩ => show win0_0.index t (2 : Fin 3) * 2048 + 1 * d.val = d.val; omega
  case hx1 =>
    intro _ k d
    show V m c main_arg0 (((cfg0.win 1).blk t).view.emb (ix3 (0 : Fin 1) k d)) = _
    rw [V_main_arg0]
    refine congrArg _ (funext fun a => Fin.ext ?_)
    match a with
    | ⟨0, _⟩ => show win0_1.index t (0 : Fin 3) * 1 + 1 * 0 = bv; omega
    | ⟨1, _⟩ => show win0_1.index t (1 : Fin 3) * 8 + 1 * k.val = 8 * (64 * tv - 1) + k.val; omega
    | ⟨2, _⟩ => show win0_1.index t (2 : Fin 3) * 2048 + 1 * d.val = d.val; omega
  case hw0 =>
    intro d
    refine Eq.trans (?_ : _ = V m c main_v0 (ix2 (0 : Fin 4) d)) (hw 0 d)
    show V m c main_v0 (((cfg0.win 2).blk t).view.emb (rW0.idx (ix2 (0 : Fin 1) d))) = _
    refine congrArg _ (funext fun a => Fin.ext ?_)
    match a with
    | ⟨0, _⟩ => show win0_2.index t (0 : Fin 2) * 4 + 1 * (0 + 1 * 0) = 0; omega
    | ⟨1, _⟩ => show win0_2.index t (1 : Fin 2) * 2048 + 1 * (0 + 1 * d.val) = d.val; omega
  case hw1 =>
    intro d
    refine Eq.trans (?_ : _ = V m c main_v0 (ix2 (1 : Fin 4) d)) (hw 1 d)
    show V m c main_v0 (((cfg0.win 2).blk t).view.emb (rW1.idx (ix2 (0 : Fin 1) d))) = _
    refine congrArg _ (funext fun a => Fin.ext ?_)
    match a with
    | ⟨0, _⟩ => show win0_2.index t (0 : Fin 2) * 4 + 1 * (1 + 1 * 0) = 1; omega
    | ⟨1, _⟩ => show win0_2.index t (1 : Fin 2) * 2048 + 1 * (0 + 1 * d.val) = d.val; omega
  case hw2 =>
    intro d
    refine Eq.trans (?_ : _ = V m c main_v0 (ix2 (2 : Fin 4) d)) (hw 2 d)
    show V m c main_v0 (((cfg0.win 2).blk t).view.emb (rW2.idx (ix2 (0 : Fin 1) d))) = _
    refine congrArg _ (funext fun a => Fin.ext ?_)
    match a with
    | ⟨0, _⟩ => show win0_2.index t (0 : Fin 2) * 4 + 1 * (2 + 1 * 0) = 2; omega
    | ⟨1, _⟩ => show win0_2.index t (1 : Fin 2) * 2048 + 1 * (0 + 1 * d.val) = d.val; omega
  case hw3 =>
    intro d
    refine Eq.trans (?_ : _ = V m c main_v0 (ix2 (3 : Fin 4) d)) (hw 3 d)
    show V m c main_v0 (((cfg0.win 2).blk t).view.emb (rW3.idx (ix2 (0 : Fin 1) d))) = _
    refine congrArg _ (funext fun a => Fin.ext ?_)
    match a with
    | ⟨0, _⟩ => show win0_2.index t (0 : Fin 2) * 4 + 1 * (3 + 1 * 0) = 3; omega
    | ⟨1, _⟩ => show win0_2.index t (1 : Fin 2) * 2048 + 1 * (0 + 1 * d.val) = d.val; omega
  refine congrArg _ (funext fun a => Fin.ext ?_)
  match a with
  | ⟨0, _⟩ => show bv = win0_3.index t (0 : Fin 3) * 1 + 1 * 0; omega
  | ⟨1, _⟩ => show 512 * tv + r.val = win0_3.index t (1 : Fin 3) * 512 + 1 * r.val; omega
  | ⟨2, _⟩ => show d.val = win0_3.index t (2 : Fin 3) * 2048 + 1 * d.val; omega

/-- An index of the result is in point `t`'s tile iff each coordinate is in the tile's range on its axis. -/
theorem mem_blk (t : Fin cfg0.N) (i : S4x4096x2048.Idx) :
    i ∈ ((cfg0.win 3).blk t).view.set ↔ ∀ a : Fin 3, win0_3.index t a * S1x512x2048.size a ≤ (i a).val
      ∧ (i a).val < win0_3.index t a * S1x512x2048.size a + S1x512x2048.size a := by
  show i ∈ ((View.whole main_v1).slice (win0_3.rect t)).set ↔ _
  rw [View.set_slice_whole, Rect.mem_set_unit]
  exact Iff.rfl

/-- The 4 · 8 tiles cover the result: position p of batch b lies in the tile of point (b, p / 512). -/
theorem cover (i : S4x4096x2048.Idx) : ∃ t : Fin cfg0.N, (cfg0.win 3).flush t = true ∧ i ∈ ((cfg0.win 3).blk t).view.set := by
  have h0 : (i 0).val < 4 := (i 0).isLt
  have h1 : (i 1).val < 4096 := (i 1).isLt
  have h2 : (i 2).val < 2048 := (i 2).isLt
  obtain ⟨t, ht⟩ := idx_onto ⟨(i 0).val, h0⟩ ⟨(i 1).val / 512, by omega⟩
  have q0 : win0_3.index t (0 : Fin 3) = (i 0).val := congrFun ht 0
  have q1 : win0_3.index t (1 : Fin 3) = (i 1).val / 512 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 2048 ≤ (i 2).val ∧ (i 2).val < win0_3.index t (2 : Fin 3) * 2048 + 2048; omega

/-- The result array after the run is the convolution of the launched arguments. -/
theorem final (c : Dev nD) : (dats m 0 c).arrAt 3 cfg0.N
    = conv (m ((c : Thread nD τ).loc main_arg0)) (m ((c : Thread nD τ).loc main_arg1)) :=
  (dats m 0 c).arrAt_eq_of_cover 3 _ (fun t _ => flushed_eq m c t) cover

/-- The run, read: every weakly fair execution ends with the result at the convolution of the arguments and the
    arguments unchanged. -/
theorem run : θ_run defs (onTc (τ := τ) (main (F := Ideal))) ⟨m, fun _ => 0, ρ⟩ fun r => ∀ c : Dev nD,
      r.2.mem ((c : Thread nD τ).loc main_v1) = conv (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 3).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c)⟩)
    (run_main m ρ)

end Cert.KernelIdeal.ConvValue

end
-- ==== Proof.RefValue.lean ====
/-
  The reference computes the convolution of the specification.

  The reference pads x with three zero rows in front of every batch's sequence, takes the four slices of
  4096 rows starting at rows 0, 1, 2, 3 of the padded array, multiplies slice j by column j of the filter
  (the column reshaped to a vector and broadcast over batch and position), and adds the four products from
  the left. Read at an index (b, t, d): slice j is the padded array at row j + t, which is x at row
  j + t − 3 when that is not negative and the padding value otherwise; the padding value is the integer 0
  converted to a float, the real number 0; and the broadcast of column j is w[d, j].
-/
import proofs.«141822_j41575283425757_2_alg».proof.Proof.Gen.ReferenceIdeal.Read
import proofs.«141822_j41575283425757_2_alg».proof.Proof.Spec
import Idealize.ShloMosaic.Lib.KernelVsHost

noncomputable section

namespace Cert.ReferenceIdeal.RefValue

open Cert.ReferenceIdeal Cert.ReferenceIdeal.Read Idealize.ShloMosaic Idealize.ShloMosaic.ValueIdx Cert.ConvSpec

/-- The padding value is zero: the integer constant 0, converted exactly. -/
theorem pad_value (u : S_.Idx) : val_main_call0_v0 (F := Ideal) u = 0 := by
  rw [val_main_call0_v0_apply, val_main_c_apply]
  show (((BitVec.toInt (0#32) : ℤ) : ℝ) : EReal) = 0
  simp

/-- The padded array read at an index is the specification's padded sequence. -/
theorem pad_read (x : XIdx → EReal) (j : S4x4099x2048.Idx) :
    val_main_v0 (F := Ideal) x j = padded x (j 0) (j 1).val (j 2) := by
  unfold val_main_v0
  have hj : (j 1).val < 4099 := (j 1).isLt
  by_cases h : 3 ≤ (j 1).val
  · have hk : (j 1).val - 3 < 4096 := by omega
    rw [padded_ge x (j 0) (j 1).val (j 2) ⟨(j 1).val - 3, hk⟩ (by show (j 1).val - 3 + 3 = (j 1).val; omega)]
    refine pad_apply_of_inside _ _ _ x _ _ _ j (ix3 (j 0) ⟨(j 1).val - 3, hk⟩ (j 2)) (fun a => ?_)
    match a with
    | ⟨0, _⟩ => show (j 0).val = 0 + (j 0).val * (0 + 1); omega
    | ⟨1, _⟩ => show (j 1).val = 3 + ((j 1).val - 3) * (0 + 1); omega
    | ⟨2, _⟩ => show (j 2).val = 0 + (j 2).val * (0 + 1); omega
  · rw [padded_lt x (j 0) (j 1).val (j 2) (by omega)]
    rw [pad_apply_of_not_inside _ _ _ x _ _ _ j (1 : Fin 3) (fun hh => h hh.1)]
    exact pad_value _

/-- The reference's result is the convolution. -/
theorem ref_eq_conv (x : XIdx → EReal) (w : WIdx → EReal) : val_main_v27 (F := Ideal) x w = conv x w := by
  funext i
  have ew0 : idx_main_v2 (idx_main_v3 (idx_main_v4 (idx_main_v5 i))) = ix2 (i 2) (0 : Fin 4) :=
    funext fun a => Fin.ext (by match a with | ⟨0, _⟩ => exact Nat.div_one _ | ⟨1, _⟩ => rfl)
  have ew1 : idx_main_v8 (idx_main_v9 (idx_main_v10 (idx_main_v11 i))) = ix2 (i 2) (1 : Fin 4) :=
    funext fun a => Fin.ext (by match a with | ⟨0, _⟩ => exact Nat.div_one _ | ⟨1, _⟩ => rfl)
  have ew2 : idx_main_v15 (idx_main_v16 (idx_main_v17 (idx_main_v18 i))) = ix2 (i 2) (2 : Fin 4) :=
    funext fun a => Fin.ext (by match a with | ⟨0, _⟩ => exact Nat.div_one _ | ⟨1, _⟩ => rfl)
  have ew3 : idx_main_v22 (idx_main_v23 (idx_main_v24 (idx_main_v25 i))) = ix2 (i 2) (3 : Fin 4) :=
    funext fun a => Fin.ext (by match a with | ⟨0, _⟩ => exact Nat.div_one _ | ⟨1, _⟩ => rfl)
  rw [val_main_v27_apply, val_main_v20_apply, val_main_v13_apply, val_main_v6_apply, val_main_v12_apply, val_main_v19_apply,
    val_main_v26_apply, val_main_v1_apply, val_main_v7_apply, val_main_v14_apply, val_main_v21_apply,
    val_main_v5_apply, val_main_v4_apply, val_main_v3_apply, val_main_v2_apply,
    val_main_v11_apply, val_main_v10_apply, val_main_v9_apply, val_main_v8_apply,
    val_main_v18_apply, val_main_v17_apply, val_main_v16_apply, val_main_v15_apply,
    val_main_v25_apply, val_main_v24_apply, val_main_v23_apply, val_main_v22_apply,
    ew0, ew1, ew2, ew3, pad_read, pad_read, pad_read, pad_read]
  rfl

end Cert.ReferenceIdeal.RefValue

end
-- ==== Proof.lean ====
/-
  A causal depthwise convolution with four taps: the kernel against its reference.

  The kernel walks a grid of (batch, 512-row tile) points; at each it reads the tile of x and, through a
  second window on the SAME array, the eight rows before it, and writes the tile of the result. The
  reference pads x with three zero rows, slices it four times and sums the four products with the filter's
  columns. Over the extended reals both compute
      y[b, t, d] = Σ_j xp[b, t + j, d] · w[d, j]   (xp = x with three zero rows in front),
  the kernel adding the taps in the order 3, 0, 1, 2 and the reference in the order 0, 1, 2, 3: the results
  are equal because addition of extended reals is commutative and associative, and no finiteness of the
  inputs is used.

  The pieces: the body's triple and the pipeline's proof data (IdealBody, KernelBody — the two x-windows
  each hold x at half the full share); the run by the launch rule for windows that share an array, and
  the frames (IdealRun, KernelRun); the specification (Spec); the reference is the specification
  (RefValue); a tile of the kernel is a tile of the specification (IdealTile); the tiles cover the result
  (IdealValue). No operation of the kernel was rewritten by the idealization, so there is nothing to
  preserve beyond the text itself.
-/
import proofs.«141822_j41575283425757_2_alg».proof.Defs
import proofs.«141822_j41575283425757_2_alg».proof.Proof.Gen.Kernel
import proofs.«141822_j41575283425757_2_alg».proof.Proof.Gen.KernelIdeal
import proofs.«141822_j41575283425757_2_alg».proof.Proof.Gen.ReferenceIdeal
import proofs.«141822_j41575283425757_2_alg».proof.Proof.Gen.Pre_finite_inputs
import proofs.«141822_j41575283425757_2_alg».proof.Proof.Gen.ReferenceIdeal.Run
import proofs.«141822_j41575283425757_2_alg».proof.Proof.Gen.ReferenceIdeal.Read
import proofs.«141822_j41575283425757_2_alg».proof.Proof.KernelRun
import proofs.«141822_j41575283425757_2_alg».proof.Proof.IdealValue
import proofs.«141822_j41575283425757_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs to the end and leaves x and w as they were. -/
theorem frame_kernel : Cert.frame_Kernel (hKernel := Cert.Kernel.Gen.facts) (hPre_finite_inputs := Cert.Pre_finite_inputs.Gen.facts) :=
  fun m ρ _ => Cert.Kernel.Conv.frame m ρ

/-- So does the kernel read over the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Conv.frame m ρ

/-- The reference is a straight line of host operations: its run, with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on x and w, the kernel's result array and the reference's both end at the
    convolution of x and w. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ConvSpec.conv (m ((c : Thread Cert.KernelIdeal.nD Cert.KernelIdeal.τ).loc Cert.KernelIdeal.main_arg0))
    (m ((c : Thread Cert.KernelIdeal.nD Cert.KernelIdeal.τ).loc Cert.KernelIdeal.main_arg1)), Cert.KernelIdeal.ConvValue.run m ρ, ?_⟩
  refine (θ_run Cert.ReferenceIdeal.defs _ _).mono (fun _ h c => ⟨?_, (h c).2⟩) (Cert.ReferenceIdeal.Value.run (F := Ideal) m' ρ')
  rw [(h c).1, Cert.ReferenceIdeal.Read.val_main_v27_eq, Cert.ReferenceIdeal.RefValue.ref_eq_conv, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
